-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .bf16⟩
  | .local _ .vmem, ⟨3, _⟩ => ⟨S1024x256, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .bf16 = 32 ∨ (Rect.block (s := S4096x4096) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, over the extended reals, and the way of reading an array at natural-number
  coordinates that the kernel side is written in.

  `linear X S B` is the dense layer  y(r, o) = (sum over k < 4096 of X(r, k) * S(o, k)) + B(o)  on an 8192 x 4096
  input `X`, a 4096 x 4096 matrix `S` used transposed (it will be the matrix of signs of the weights) and a bias
  vector `B`.
-/
import Idealize.ShloMosaic.PureOps.Ideal
import Idealize.ShloMosaic.Lib.ValueIdx

noncomputable section

namespace Cert.BinLinear

open Idealize.ShloMosaic Idealize.ShloMosaic.ValueIdx

/-- A matrix read at natural-number coordinates (zero outside its extents, where it is never read). -/
def at2 {n0 n1 : ℕ} (A : (⟨2, ![n0, n1]⟩ : Shape).Idx → EReal) (r c : ℕ) : EReal :=
  if h : r < n0 ∧ c < n1 then A (ix2 ⟨r, h.1⟩ ⟨c, h.2⟩) else 0

/-- Inside the extents it is the matrix entry. -/
theorem at2_val {n0 n1 : ℕ} (A : (⟨2, ![n0, n1]⟩ : Shape).Idx → EReal) (a : Fin n0) (b : Fin n1) :
    at2 A a.val b.val = A (ix2 a b) := by
  unfold at2
  rw [dif_pos ⟨a.isLt, b.isLt⟩]

/-- Equal coordinates, equal entries. -/
theorem at2_congr {n0 n1 : ℕ} (A : (⟨2, ![n0, n1]⟩ : Shape).Idx → EReal) {r r' c c' : ℕ} (hr : r = r') (hc : c = c') :
    at2 A r c = at2 A r' c' := by
  subst hr; subst hc; rfl

/-- The dense layer: y(r, o) = (sum over k of X(r, k) * S(o, k)) + B(o). -/
def linear (X : (⟨2, ![8192, 4096]⟩ : Shape).Idx → EReal) (S : (⟨2, ![4096, 4096]⟩ : Shape).Idx → EReal)
    (B : (⟨1, ![4096]⟩ : Shape).Idx → EReal) : (⟨2, ![8192, 4096]⟩ : Shape).Idx → EReal :=
  fun i => (∑ k : Fin 4096, X (ix2 (i 0 : Fin 8192) k) * S (ix2 (i 1 : Fin 4096) k)) + B (ix1 (i 1 : Fin 4096))

end Cert.BinLinear

end
-- ==== Proof.Blocks.lean ====
/-
  What the kernel's three input windows hold at a grid point, read at an entry.

  The grid has 4 x 4 x 16 points; point number n (row-major) is (n / 64, n / 16 % 4, n % 16) = (i, j, k).
  * window 0 stages x: its block at point n is rows 2048 i .. and columns 256 k .. of x;
  * window 1 stages the matrix the host computed before the call — the signs of the weights, changed to the
    narrower float format —: its block is rows 1024 j .. and columns 256 k ..;
  * window 2 stages the bias, reshaped by the host to one row: its block is columns 1024 j .. of that row.
-/
import proofs.«106917_j10325101380264_2_alg».proof.Proof.Gen.KernelIdeal.Frame
import proofs.«106917_j10325101380264_2_alg».proof.Proof.Spec
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.BinLinear

/-! ## The arrays the call finds -/

section AnyF
variable {F : FTy → Type} [FloatOps F]
variable (m : (ℓ : Loc nD τ sig) → Buf (Elt F) ℓ)

/-- The second operand of the call is the sign matrix of the weights in the narrower format. -/
theorem entry_w (c : Dev nD) :
    V m c main_v1 = truncf .bf16 (Host.sign (m ((c : Thread nD τ).loc main_arg1))) bitsLt_bf16_f32 := by
  dsimp only [Gen.V, Gen.hostOps0]
  after_results

/-- The third operand of the call is the bias as one row. -/
theorem entry_b (c : Dev nD) :
    V m c main_v2 = shapeCast S1x4096 (m ((c : Thread nD τ).loc main_arg2)) shapeCasts_S4096_S1x4096 := by
  dsimp only [Gen.V, Gen.hostOps0]
  after_results
  rfl

end AnyF

/-! ## The index maps, over the grid -/

/-- Each window's block index at point `t`, from the point's number. -/
theorem idx_facts : ∀ t : Fin cfg0.N,
    win0_0.index t (0 : Fin 2) = t.val / 64 ∧ win0_0.index t (1 : Fin 2) = t.val % 16
  ∧ win0_1.index t (0 : Fin 2) = t.val / 16 % 4 ∧ win0_1.index t (1 : Fin 2) = t.val % 16
  ∧ win0_2.index t (0 : Fin 2) = 0 ∧ win0_2.index t (1 : Fin 2) = t.val / 16 % 4 :=
  (by decide +kernel : ∀ t : Fin grid0.N, _)

/-! ## The blocks, at an entry -/

variable (m : (ℓ : Loc nD τ sig) → Buf (Elt Ideal) ℓ)

/-- The x-block at point `t`, entry (p, kk): x at row 2048 (t / 64) + p, column 256 (t % 16) + kk. -/
theorem xblk_apply (c : Dev nD) (t : Fin cfg0.N) (p : Fin 2048) (kk : Fin 256) :
    iblk m c 0 t (ix2 p kk)
      = at2 (V m c main_arg0 : S8192x4096.Idx → EReal) (2048 * (t.val / 64) + p.val) (256 * (t.val % 16) + kk.val) := by
  have ht : t.val < 256 := lt_of_lt_of_eq t.isLt (show cfg0.N = 256 from N_0)
  obtain ⟨e0, e1, -⟩ := idx_facts t
  unfold at2
  rw [dif_pos ⟨by omega, by omega⟩]
  unfold iblk
  rw [View.read_apply]
  show V m c main_arg0 _ = V m c main_arg0 _
  refine congrArg (V m c main_arg0) (funext fun a => Fin.ext ?_)
  match a with
  | ⟨0, _⟩ => show win0_0.index t (0 : Fin 2) * 2048 + 1 * p.val = 2048 * (t.val / 64) + p.val; rw [e0]; omega
  | ⟨1, _⟩ => show win0_0.index t (1 : Fin 2) * 256 + 1 * kk.val = 256 * (t.val % 16) + kk.val; rw [e1]; omega

/-- The block of the second operand at point `t`, entry (q, kk): row 1024 (t / 16 % 4) + q, column 256 (t % 16) + kk. -/
theorem wblk_apply (c : Dev nD) (t : Fin cfg0.N) (q : Fin 1024) (kk : Fin 256) :
    iblk m c 1 t (ix2 q kk)
      = at2 (V m c main_v1 : S4096x4096.Idx → EReal) (1024 * (t.val / 16 % 4) + q.val) (256 * (t.val % 16) + kk.val) := by
  have ht : t.val < 256 := lt_of_lt_of_eq t.isLt (show cfg0.N = 256 from N_0)
  obtain ⟨-, -, e0, e1, -⟩ := idx_facts t
  unfold at2
  rw [dif_pos ⟨by omega, by omega⟩]
  unfold iblk
  rw [View.read_apply]
  show V m c main_v1 _ = V m c main_v1 _
  refine congrArg (V m c main_v1) (funext fun a => Fin.ext ?_)
  match a with
  | ⟨0, _⟩ => show win0_1.index t (0 : Fin 2) * 1024 + 1 * q.val = 1024 * (t.val / 16 % 4) + q.val; rw [e0]; omega
  | ⟨1, _⟩ => show win0_1.index t (1 : Fin 2) * 256 + 1 * kk.val = 256 * (t.val % 16) + kk.val; rw [e1]; omega

/-- The bias block at point `t`, entry (0, q): the bias row at column 1024 (t / 16 % 4) + q. -/
theorem bblk_apply (c : Dev nD) (t : Fin cfg0.N) (q : Fin 1024) :
    iblk m c 2 t (ix2 (0 : Fin 1) q)
      = at2 (V m c main_v2 : S1x4096.Idx → EReal) 0 (1024 * (t.val / 16 % 4) + q.val) := by
  have ht : t.val < 256 := lt_of_lt_of_eq t.isLt (show cfg0.N = 256 from N_0)
  obtain ⟨-, -, -, -, e0, e1⟩ := idx_facts t
  unfold at2
  rw [dif_pos ⟨by omega, by omega⟩]
  unfold iblk
  rw [View.read_apply]
  show V m c main_v2 _ = V m c main_v2 _
  refine congrArg (V m c main_v2) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = 1024 * (t.val / 16 % 4) + q.val; rw [e1]; omega

end Cert.KernelIdeal.Blocks

end
-- ==== Proof.TileOps.lean ====
/-
  The body's arithmetic on one output tile, read at an entry (p, q) of the 2048 x 1024 tile, over the extended reals.

  * the tile the first reduction step starts from is zero everywhere;
  * one reduction step adds to the tile the product of the step's x-chunk (2048 x 256) with the transposed
    w-chunk (1024 x 256): entry (p, q) gains the sum over the chunk's 256 columns kk of x(p, kk) * w(q, kk) —
    the change of format on the way into the product is the identity on extended reals, and a product into a zero
    accumulator is the plain sum of products;
  * the last step then adds the bias row: entry (p, q) gains b(0, q).
-/
import proofs.«106917_j10325101380264_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileOps

open Cert.KernelIdeal Cert.KernelIdeal.Gen Idealize.ShloMosaic Idealize.ShloMosaic.ValueIdx

/-- The contraction of the tile product: the chunks' second axes, of extent 256. -/
abbrev chunkDot : DotDims S2048x256 S1024x256 S2048x1024 := dot_S2048x256_S1024x256_S2048x1024_1_1_0_0_n_n

/-- The left factor of entry `j`'s `k`-th product sits in row `j 0` of the x-chunk … -/
theorem lhs_row (j : S2048x1024.Idx) (k : chunkDot.contr.Idx) : (chunkDot.lhsIdx j k 0).val = (j 0).val := by
  unfold DotDims.lhsIdx
  rw [dif_neg (show ¬(0 : Fin S2048x256.rank) ∈ chunkDot.lhsBatch by decide),
    dif_pos (show (0 : Fin S2048x256.rank) ∈ chunkDot.lhsNonContracting by decide)]
  rfl
/-- … at the contraction position, -/
theorem lhs_col (j : S2048x1024.Idx) (k : chunkDot.contr.Idx) : (chunkDot.lhsIdx j k 1).val = (k ⟨0, by decide⟩).val :=
  chunkDot.lhsIdx_val_of_single rfl j k
/-- and the right factor in row `j 1` of the w-chunk (the product is against the transpose) … -/
theorem rhs_row (j : S2048x1024.Idx) (k : chunkDot.contr.Idx) : (chunkDot.rhsIdx j k 0).val = (j 1).val := by
  unfold DotDims.rhsIdx
  rw [dif_neg (show ¬(0 : Fin S1024x256.rank) ∈ chunkDot.rhsBatch by decide),
    dif_pos (show (0 : Fin S1024x256.rank) ∈ chunkDot.rhsNonContracting by decide)]
  rfl
/-- … at the same contraction position. -/
theorem rhs_col (j : S2048x1024.Idx) (k : chunkDot.contr.Idx) : (chunkDot.rhsIdx j k 1).val = (k ⟨0, by decide⟩).val :=
  chunkDot.rhsIdx_val_of_single rfl j k

/-- The product of an x-chunk with a transposed w-chunk into the zero tile, at entry (p, q): the sum over the 256
    chunk columns of x(p, kk) * w(q, kk). -/
theorem chunkProduct_apply (a : FVec Ideal S2048x256 .bf16) (b : FVec Ideal S1024x256 .bf16) (p : Fin 2048) (q : Fin 1024) :
    matmul chunkDot none a b (constant S2048x1024 .f32 0x00000000#32) (ix2 p q)
      = ∑ kk : Fin 256, a (ix2 p kk) * b (ix2 q kk) := by
  refine (Ideal.matmul_constant_zero_apply chunkDot none a b (ix2 p q)).trans ?_
  rw [← Equiv.sum_comp (contrEquiv1 chunkDot 256 rfl rfl).symm]
  refine Finset.sum_congr rfl fun kk _ => ?_
  have hk := contrEquiv1_symm_val chunkDot 256 rfl rfl kk
  have el : chunkDot.lhsIdx (ix2 p q) ((contrEquiv1 chunkDot 256 rfl rfl).symm kk) = ix2 p kk := funext fun a => Fin.ext (by
    match a with
    | ⟨0, _⟩ => exact lhs_row _ _
    | ⟨1, _⟩ => exact (lhs_col _ _).trans hk)
  have er : chunkDot.rhsIdx (ix2 p q) ((contrEquiv1 chunkDot 256 rfl rfl).symm kk) = ix2 q kk := funext fun a => Fin.ext (by
    match a with
    | ⟨0, _⟩ => exact rhs_row _ _
    | ⟨1, _⟩ => exact (rhs_col _ _).trans hk)
  rw [el, er]

/-- The tile a run of reduction steps starts from is zero at every entry. -/
theorem zeroTile_apply (j : S2048x1024.Idx) : k0_pay1 (F := Ideal) j = 0 :=
  Ideal.ofBits_zero_f32

/-- One reduction step at entry (p, q): the tile's entry plus the sum over the chunk columns of x(p, kk) * w(q, kk). -/
theorem step_apply (x : FVec Ideal S2048x256 .f32) (w : FVec Ideal S1024x256 .bf16) (acc : FVec Ideal S2048x1024 .f32)
    (p : Fin 2048) (q : Fin 1024) :
    k0_pay2 x w acc (ix2 p q) = acc (ix2 p q) + ∑ kk : Fin 256, x (ix2 p kk) * w (ix2 q kk) := by
  unfold k0_pay2
  rw [shapeCast_self, shapeCast_self, addf_apply]
  exact congrArg (acc (ix2 p q) + ·) (chunkProduct_apply _ _ p q)

/-- The bias step at entry (p, q): the tile's entry plus the bias row's entry in column q. -/
theorem bias_apply (acc : FVec Ideal S2048x1024 .f32) (b : FVec Ideal S1x1024 .f32) (p : Fin 2048) (q : Fin 1024) :
    k0_pay3 acc b (ix2 p q) = acc (ix2 p q) + b (ix2 (0 : Fin 1) q) := by
  unfold k0_pay3
  rw [shapeCast_self, shapeCast_self, addf_apply]
  refine congrArg (acc (ix2 p q) + ·) ?_
  refine broadcastTo_apply b _ (ix2 p q) (ix2 (0 : Fin 1) q) (fun a => ?_)
  match a with
  | ⟨0, _⟩ => show (0 : ℕ) = if (1 : ℕ) = 1 then 0 else _; rw [if_pos rfl]
  | ⟨1, _⟩ => show q.val = if (1024 : ℕ) = 1 then 0 else q.val; rw [if_neg (by decide)]

end Cert.KernelIdeal.TileOps

end
-- ==== Proof.LibTileSum.lean ====
/-
  A sum over a long axis, taken tile by tile.

  For a function `f` of a natural number with values in any commutative additive monoid (the extended reals
  below), adding up `T` consecutive tiles of `K` terms each is adding up the first `T * K` terms: only
  associativity of the sum is used, so nothing is asked of the terms (they may be infinite).
-/
import Mathlib.Algebra.BigOperators.Fin
import Mathlib.Algebra.BigOperators.Intervals

namespace Cert.TileSum

open Finset

/-- `T` tiles of `K` consecutive terms, summed tile by tile, are the first `T * K` terms summed once. -/
theorem sum_tiles {M : Type*} [AddCommMonoid M] (K : ℕ) (f : ℕ → M) :
    ∀ T : ℕ, ∑ s ∈ range T, ∑ kk : Fin K, f (K * s + kk.val) = ∑ k : Fin (T * K), f k.val
  | 0 => by
    rw [Finset.sum_range_zero, ← Finset.sum_range (fun k => f k), Nat.zero_mul, Finset.sum_range_zero]
  | T + 1 => by
    rw [Finset.sum_range_succ, sum_tiles K f T, ← Finset.sum_range (fun k => f k),
      ← Finset.sum_range (fun k => f k), ← Finset.sum_range (fun kk => f (K * T + kk)),
      Nat.succ_mul, Finset.sum_range_add, Nat.mul_comm K T]

end Cert.TileSum
-- ==== Proof.KernelValue.lean ====
/-
  The kernel's result array is the dense layer of `Spec.lean`.

  The output tile holding entry (r, o) is visited at 16 consecutive grid points, one per chunk of 256 columns of the
  reduction axis. The first point starts the tile from zero and adds its chunk's products, each later point adds its
  own, and the last also adds the bias: the generated fold over those 16 points. Read at the entry, point s of the
  run adds the sum over kk < 256 of x(r, 256 s + kk) * S(o, 256 s + kk), so the run leaves
  0 + (sum over the 16 chunks) + b(o); sixteen chunks of 256 terms summed chunk by chunk are the 4096 terms summed
  once (`TileSum.sum_tiles`: associativity of the sum only, nothing asked of the terms), and 0 + a = a.
-/
import proofs.«106917_j10325101380264_2_alg».proof.Proof.Gen.KernelIdeal.Value
import proofs.«106917_j10325101380264_2_alg».proof.Proof.Blocks
import proofs.«106917_j10325101380264_2_alg».proof.Proof.TileOps
import proofs.«106917_j10325101380264_2_alg».proof.Proof.LibTileSum
import proofs.«106917_j10325101380264_2_alg».proof.Proof.Spec

noncomputable section

namespace Cert.KernelIdeal.KernelValue

open Cert.KernelIdeal Cert.KernelIdeal.Gen Idealize.ShloMosaic Idealize.ShloMosaic.TcCoe Idealize.SL.Sem
open Idealize.ShloMosaic.ValueIdx Cert.BinLinear Finset

variable (m : (ℓ : Loc nD τ sig) → Buf (Elt Ideal) ℓ)

/-- The three arrays the call stages: x, the sign matrix, the bias row. -/
abbrev xArr (c : Dev nD) : S8192x4096.Idx → EReal := V m c main_arg0
abbrev sArr (c : Dev nD) : S4096x4096.Idx → EReal := V m c main_v1
abbrev bRow (c : Dev nD) : S1x4096.Idx → EReal := V m c main_v2

/-- What grid point `n` adds to its tile at entry `j`: the products over the point's 256 reduction columns. -/
def addend (c : Dev nD) (n : ℕ) : S2048x1024.Idx → EReal := fun j =>
  ∑ kk : Fin 256, at2 (xArr m c) (2048 * (n / 64) + (j 0).val) (256 * (n % 16) + kk.val)
      * at2 (sArr m c) (1024 * (n / 16 % 4) + (j 1).val) (256 * (n % 16) + kk.val)

/-- One reduction step at point `n`, at an entry: the tile's entry plus the point's addend. -/
theorem step_eq (c : Dev nD) (n : ℕ) (h : n < cfg0.N) (acc : FVec Ideal S2048x1024 .f32) (j : S2048x1024.Idx) :
    k0_pay2 (iblk m c 0 ⟨n, h⟩) (iblk m c 1 ⟨n, h⟩) acc j = acc j + addend m c n j := by
  obtain ⟨p, q, rfl⟩ : ∃ (p : Fin 2048) (q : Fin 1024), j = ix2 p q := ⟨j 0, j 1, eq_ix2 j⟩
  refine (TileOps.step_apply (iblk m c 0 ⟨n, h⟩) (iblk m c 1 ⟨n, h⟩) acc p q).trans ?_
  refine congrArg (acc (ix2 p q) + ·) (Finset.sum_congr rfl fun kk _ => ?_)
  rw [Blocks.xblk_apply m c ⟨n, h⟩ p kk, Blocks.wblk_apply m c ⟨n, h⟩ q kk]

/-- The tile after the first 15 points of a run starting at point `b`: zero plus their addends. -/
theorem fold_eq (c : Dev nD) (b : ℕ) (hb : b % 16 = 0) (h : b + 14 < cfg0.N) (j : S2048x1024.Idx) :
    Pipeline.accAt (Value.reset3 m c) (Value.step3 m c) b 14 h j = 0 + ∑ s ∈ range 15, addend m c (b + s) j :=
  Pipeline.accAt_add_apply (ι := S2048x1024.Idx) (β := EReal) (Value.reset3 m c) (Value.step3 m c) (fun _ => 0) (addend m c) b 14
    (fun hb' i => by
      unfold Value.reset3
      exact (step_eq m c b hb' (k0_pay1 (F := Ideal)) i).trans (by rw [TileOps.zeroTile_apply]))
    (fun n hn acc i h1 h2 => by
      unfold Value.step3
      rw [if_pos ⟨by omega, by omega⟩]
      exact step_eq m c n hn acc i)
    14 le_rfl h j

/-- The tile after all 16 points of a run starting at point `b`: zero plus the 16 addends, plus the bias row's entry. -/
theorem run_eq (c : Dev nD) (b : ℕ) (hb : b % 16 = 0) (h : b + 15 < cfg0.N) (j : S2048x1024.Idx) :
    Pipeline.accAt (Value.reset3 m c) (Value.step3 m c) b 15 h j
      = (0 + ∑ s ∈ range 16, addend m c (b + s) j) + at2 (bRow m c) 0 (1024 * ((b + 15) / 16 % 4) + (j 1).val) := by
  obtain ⟨p, q, rfl⟩ : ∃ (p : Fin 2048) (q : Fin 1024), j = ix2 p q := ⟨j 0, j 1, eq_ix2 j⟩
  have hs : Pipeline.accAt (Value.reset3 m c) (Value.step3 m c) b 15 h
      = Value.step3 m c (b + 15) h (Pipeline.accAt (Value.reset3 m c) (Value.step3 m c) b 14 (Nat.lt_of_succ_lt h)) :=
    Pipeline.accAt_succ (Value.reset3 m c) (Value.step3 m c) b 14 h
  have hlast : ∀ acc : FVec Ideal S2048x1024 .f32, Value.step3 m c (b + 15) h acc
      = k0_pay3 (k0_pay2 (iblk m c 0 ⟨b + 15, h⟩) (iblk m c 1 ⟨b + 15, h⟩) acc) (iblk m c 2 ⟨b + 15, h⟩) := by
    intro acc
    unfold Value.step3
    rw [if_neg (fun hh => hh.2 (by omega)), if_pos ⟨by omega, by omega⟩]
  rw [hs, hlast]
  refine (TileOps.bias_apply _ (iblk m c 2 ⟨b + 15, h⟩) p q).trans ?_
  rw [Blocks.bblk_apply m c ⟨b + 15, h⟩ q]
  refine congrArg (· + at2 (bRow m c) 0 (1024 * ((b + 15) / 16 % 4) + q.val)) ?_
  refine (step_eq m c (b + 15) h _ (ix2 p q)).trans ?_
  rw [fold_eq m c b hb _ (ix2 p q), Finset.sum_range_succ _ 15, add_assoc]

/-- The sign matrix in the narrower format is the sign matrix: a change of format is the identity on extended reals. -/
theorem sArr_eq (c : Dev nD) :
    sArr m c = Host.sign (F := Ideal) (s := S4096x4096) (φ := .f32) (m ((c : Thread nD τ).loc main_arg1)) := by
  show V m c main_v1 = _
  rw [Blocks.entry_w]
  rfl

/-- The call finds x as launched. -/
theorem xArr_eq (c : Dev nD) : xArr m c = m ((c : Thread nD τ).loc main_arg0) := V_main_arg0 m c

/-- The bias row at column o is the bias at o. -/
theorem bRow_apply (c : Dev nD) (o : Fin 4096) :
    bRow m c (ix2 (0 : Fin 1) o) = m ((c : Thread nD τ).loc main_arg2) (ix1 o) := by
  show V m c main_v2 _ = _
  rw [Blocks.entry_b]
  refine (shapeCast_addUnit_apply ![4096] _ _ (ix2 (0 : Fin 1) o)).trans ?_
  refine congrArg _ (funext fun a => ?_)
  match a with
  | ⟨0, _⟩ => rfl

/-- THE KERNEL'S RESULT: the array the call leaves is the dense layer of x, the signs of the weights and the bias. -/
theorem G3_eq (c : Dev nD) :
    Value.G3 m c = linear (m ((c : Thread nD τ).loc main_arg0))
      (Host.sign (F := Ideal) (s := S4096x4096) (φ := .f32) (m ((c : Thread nD τ).loc main_arg1))) (m ((c : Thread nD τ).loc main_arg2)) := by
  funext i
  have hi0 : (i 0).val < 8192 := (i 0).isLt
  have hi1 : (i 1).val < 4096 := (i 1).isLt
  have hN : cfg0.N = 256 := N_0
  have hl0 : (Value.loc3Of i 0).val = (i 0).val % 2048 := rfl
  have hl1 : (Value.loc3Of i 1).val = (i 1).val % 1024 := rfl
  obtain ⟨r, hr⟩ : ∃ r, Value.run3Of i = r := ⟨_, rfl⟩
  have hr' : r = 4 * ((i 0).val / 2048) + (i 1).val / 1024 := by
    rw [← hr]; show 4 * ((i 0).val / 2048 - 0) + 1 * ((i 1).val / 1024 - 0) = _; omega
  unfold Value.G3
  rw [dif_pos (by rw [hr, hN]; omega)]
  have e : ∀ (b b' : ℕ) (hb : b + 15 < cfg0.N) (hb' : b' + 15 < cfg0.N), b = b' →
      Pipeline.accAt (Value.reset3 m c) (Value.step3 m c) b 15 hb = Pipeline.accAt (Value.reset3 m c) (Value.step3 m c) b' 15 hb' := by
    intro b b' hb hb' hbb; subst hbb; rfl
  rw [e (16 * Value.run3Of i) (16 * r) _ (by rw [hN]; omega) (by rw [hr])]
  rw [run_eq m c (16 * r) (by omega) _ (Value.loc3Of i)]
  unfold linear
  -- the sixteen chunks are the whole reduction axis
  have hsum : ∑ s ∈ range 16, addend m c (16 * r + s) (Value.loc3Of i)
      = ∑ k : Fin 4096, xArr m c (ix2 (i 0 : Fin 8192) k) * sArr m c (ix2 (i 1 : Fin 4096) k) := by
    have ht := TileSum.sum_tiles 256 (fun k => at2 (xArr m c) (i 0).val k * at2 (sArr m c) (i 1).val k) 16
    refine Eq.trans (Finset.sum_congr rfl fun s hs => ?_) (ht.trans ?_)
    · have hs' : s < 16 := Finset.mem_range.mp hs
      unfold addend
      refine Finset.sum_congr rfl fun kk _ => ?_
      have hkk : kk.val < 256 := kk.isLt
      exact congrArg₂ (· * ·)
        (at2_congr _ (by rw [hl0]; omega) (by omega))
        (at2_congr _ (by rw [hl1]; omega) (by omega))
    · show ∑ k : Fin 4096, at2 (xArr m c) (i 0).val k.val * at2 (sArr m c) (i 1).val k.val = _
      refine Finset.sum_congr rfl fun k _ => ?_
      rw [at2_val (n0 := 8192) (n1 := 4096) (xArr m c) (i 0) k, at2_val (n0 := 4096) (n1 := 4096) (sArr m c) (i 1) k]
  have hbias : at2 (bRow m c) 0 (1024 * ((16 * r + 15) / 16 % 4) + (Value.loc3Of i 1).val)
      = m ((c : Thread nD τ).loc main_arg2) (ix1 (i 1 : Fin 4096)) :=
    (at2_congr (bRow m c) (r' := (0 : Fin 1).val) (c' := (i 1 : Fin 4096).val) rfl (by rw [hl1]; omega)).trans
      ((at2_val (n0 := 1) (n1 := 4096) (bRow m c) 0 (i 1)).trans (bRow_apply m c (i 1)))
  rw [hsum, hbias, zero_add, xArr_eq, sArr_eq]

end Cert.KernelIdeal.KernelValue

end
-- ==== Proof.RefValue.lean ====
/-
  The reference's result is the dense layer of `Spec.lean` on the signs of the weights.

  Its result term is read one operation at a time by the generated read-at-an-index lemmas: the host's product is
  the sum over k of x(r, k) * sign(w)(o, k), the bias is broadcast along the rows, and the two are added.
-/
import proofs.«106917_j10325101380264_2_alg».proof.Proof.Gen.ReferenceIdeal.Read
import proofs.«106917_j10325101380264_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.BinLinear

/-- The reference's result, entry by entry: (sum over k of x(r, k) * sign(w)(o, k)) + b(o). -/
theorem result_eq (x : FVec Ideal S8192x4096 .f32) (w : FVec Ideal S4096x4096 .f32) (b : FVec Ideal S4096 .f32) :
    addf (F := Ideal) (Host.dotGeneral (F := Ideal) dot_S8192x4096_S4096x4096_S8192x4096_1_1_0_0_n_n none x (Host.sign w))
        (broadcastInDim S8192x4096 ![0, 1] bcast_S1x4096_S8192x4096_0_1 (broadcastInDim S1x4096 ![1] bcast_S4096_S1x4096_1 b))
      = linear x (Host.sign (F := Ideal) w) b := by
  rw [val_main_v4_eq]
  funext i
  have el : ∀ k : Fin 4096, lidx_main_v1 i k = ix2 (i 0 : Fin 8192) k := fun k => funext fun a => by
    match a with
    | ⟨0, _⟩ => rfl
    | ⟨1, _⟩ => rfl
  have er : ∀ k : Fin 4096, ridx_main_v1 i k = ix2 (i 1 : Fin 4096) k := fun k => funext fun a => by
    match a with
    | ⟨0, _⟩ => rfl
    | ⟨1, _⟩ => rfl
  have eb : idx_main_v2 (idx_main_v3 i) = ix1 (i 1 : Fin 4096) := funext fun a => by
    match a with
    | ⟨0, _⟩ => rfl
  rw [val_main_v4_apply, val_main_v1_apply, val_main_v3_apply, val_main_v2_apply, eb]
  simp only [el, er]
  rfl

end Cert.ReferenceIdeal.RefValue

end
-- ==== Proof.lean ====
/-
  A dense layer on binarized weights: the tiled kernel against the one-line reference, over the extended reals.

  Both programs compute  y(r, o) = (sum over k < 4096 of x(r, k) * sign(w)(o, k)) + b(o)  for x of 8192 x 4096,
  w of 4096 x 4096 and b of 4096 entries (`BinLinear.linear`, Proof/Spec.lean).

  * The reference takes the signs of w, multiplies x by their transpose in one product, and adds b broadcast along
    the rows: read entry by entry this is the formula (Proof/RefValue.lean).
  * The kernel's wrapper takes the same signs (a change to a narrower float format afterwards is the identity on
    extended reals) and reshapes b to one row. The call walks a 4 x 4 x 16 grid; each 2048 x 1024 output tile is
    visited at 16 consecutive points, which start it from zero, add one 256-column chunk of the product each, and add
    the bias row at the last. At entry (r, o) the tile ends at 0 + (sum over 16 chunks of the chunk's 256 products)
    + b(o) (Proof/TileOps.lean: the body's arithmetic; Proof/Blocks.lean: what each window holds at a point;
    Proof/KernelValue.lean: the fold over the 16 points). Summing 16 chunks of 256 terms chunk by chunk is summing the
    4096 terms once (Proof/LibTileSum.lean) — associativity of addition only, so nothing is asked of the inputs: the
    precondition is not used — and 0 + a = a.

  The idealization rewrote nothing, so that conjunct is trivial; the three frames are the generated ones.
-/
import proofs.«106917_j10325101380264_2_alg».proof.Defs
import proofs.«106917_j10325101380264_2_alg».proof.Proof.Gen.Kernel.Frame
import proofs.«106917_j10325101380264_2_alg».proof.Proof.Gen.KernelIdeal.Value
import proofs.«106917_j10325101380264_2_alg».proof.Proof.Gen.Pre_finite_inputs
import proofs.«106917_j10325101380264_2_alg».proof.Proof.Gen.ReferenceIdeal.Run
import proofs.«106917_j10325101380264_2_alg».proof.Proof.KernelValue
import proofs.«106917_j10325101380264_2_alg».proof.Proof.RefValue
import Idealize.ShloMosaic.Adequacy
import Idealize.ShloMosaic.Init

noncomputable section

namespace Cert.Proof

open Idealize.ShloMosaic Idealize.SL.Sem

/-- The idealized kernel terminates without a fault and leaves its arguments as they were. -/
theorem frame_KernelIdeal : frame_KernelIdeal := fun m ρ _ =>
  (θ_run Cert.KernelIdeal.defs _ _).mono (fun _ h c => (h c).2) (Cert.KernelIdeal.Value.run (F := Ideal) m ρ)

/-- So does the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on x, w and b, both runs end with the dense layer of x, sign(w) and b in their result. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.KernelIdeal.KernelValue.G3_eq m c]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
